-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x1 : Shape := ⟨2, ![50000, 1]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x256 .f32) (main_arg1 : FVec F S50000x1 .f32) (main_arg2 : FVec F S256x64 .f32) (main_arg3 : FVec F S64 .f32) (main_arg4 : IVec S800000 32) (main_arg5 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x256 : Shape := ⟨2, ![50000, 256]⟩
abbrev S50000x1 : Shape := ⟨2, ![50000, 1]⟩
abbrev S256x64 : Shape := ⟨2, ![256, 64]⟩
abbrev S64 : Shape := ⟨1, ![64]⟩
abbrev S800000 : Shape := ⟨1, ![800000]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 21
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S50000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S50000x64, .f32⟩
  | .hbm, ⟨18, _⟩ => ⟨S800000x1, .i32⟩
  | .hbm, ⟨19, _⟩ => ⟨S50000x64, .f32⟩
  | .hbm, ⟨20, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S50000x1 : Shape := ⟨2, ![50000, 1]⟩
abbrev S256x64 : Shape := ⟨2, ![256, 64]⟩
abbrev S64 : Shape := ⟨1, ![64]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S50000x64, .f32⟩
  | .hbm, ⟨7, _⟩ => ⟨S50000x64, .f32⟩
  | .hbm, ⟨8, _⟩ => ⟨S50000x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S50000x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S_, .f32⟩
  | .hbm, ⟨28, _⟩ => ⟨S50000x64, .f32⟩
  | .hbm, ⟨29, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S50000x1_S50000x64_0_1 : S50000x1.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The two dense stages of one graph-convolution layer, as functions of whole arrays on the extended reals.

  * `scaled h w nrm`: entry (r, c) is (Σ_{k < 256} h(r, k) · w(k, c)) · nrm(r, 0) — the node features times the weight
    matrix, every row then multiplied by that node's normalisation factor.
  * `activated agg nrm b`: entry (r, c) is max(agg(r, c) · nrm(r, 0) + b(c), 0) — the aggregated messages scaled by the
    node's factor again, the bias added along the columns, and the negative part cut off. The zero is kept as the f32
    word both programs print, so it is never evaluated.
-/
import Idealize.ShloMosaic.PureOps.Ideal
import Idealize.ShloMosaic.Lib.ValueIdx

noncomputable section

namespace Cert.Layer

open Idealize.ShloMosaic Idealize.ShloMosaic.ValueIdx

/-- The linear stage: features times weights, each row scaled by its node's factor. -/
def scaled (h : FVec Ideal ⟨2, ![50000, 256]⟩ .f32) (w : FVec Ideal ⟨2, ![256, 64]⟩ .f32)
    (nrm : FVec Ideal ⟨2, ![50000, 1]⟩ .f32) : FVec Ideal ⟨2, ![50000, 64]⟩ .f32 :=
  fun j => (∑ k : Fin 256, h (ix2 (j 0) k) * w (ix2 k (j 1))) * nrm (ix2 (j 0) (0 : Fin 1))

/-- The closing stage: scale by the node's factor, add the bias of the column, keep the non-negative part. -/
def activated (agg : FVec Ideal ⟨2, ![50000, 64]⟩ .f32) (nrm : FVec Ideal ⟨2, ![50000, 1]⟩ .f32)
    (b : FVec Ideal ⟨1, ![64]⟩ .f32) : FVec Ideal ⟨2, ![50000, 64]⟩ .f32 :=
  fun j => max (agg j * nrm (ix2 (j 0) (0 : Fin 1)) + b (ix1 (j 1))) (Ideal.ofBits .f32 0x00000000#32)

end Cert.Layer

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Linear.lean ====
/-
  The first kernel region, read as a value: after its ten grid points the result array holds `Layer.scaled` of the
  three argument arrays as the region finds them.

  Point t works on rows 5000·t … 5000·t + 4999: it loads that row block of the features, the whole weight matrix and
  that row block of the normalisation column, and stores (features · weights) · factor for its rows. On the extended
  reals the change of format before the product is the identity and the product into the zero accumulator is the plain
  sum over the 256 contracted positions, so entry (p, q) of the stored block is
  (Σ_k x(p, k) · w(k, q)) · n(p, 0) (`entry`). Row p of block t is row 5000·t + p of the array, for the features, the
  factor column and the result alike, while the weight block is the whole matrix at every point (`maps`), so what point
  t writes back is block t of `scaled` (`written`); the ten blocks tile the 50000 rows (`covered`), hence the whole
  array (`array`).
-/
import proofs.«172814_j14362370638268_2_alg».proof.Proof.Gen.KernelIdeal.Frame
import proofs.«172814_j14362370638268_2_alg».proof.Proof.Spec
import proofs.«172814_j14362370638268_2_alg».proof.Proof.LibMatmulZero
import proofs.«172814_j14362370638268_2_alg».proof.Proof.LibRowOps
import Idealize.ShloMosaic.Lib.Pipeline.Value
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's result row is the left operand's row. -/
theorem dot_row (i : S5000x64.Idx) (c : dot_S5000x256_S256x64_S5000x64_1_0_0_1_n_n.contr.Idx) :
    (dot_S5000x256_S256x64_S5000x64_1_0_0_1_n_n.lhsIdx i c 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl

/-- The product's result column is the right operand's column. -/
theorem dot_col (i : S5000x64.Idx) (c : dot_S5000x256_S256x64_S5000x64_1_0_0_1_n_n.contr.Idx) :
    (dot_S5000x256_S256x64_S5000x64_1_0_0_1_n_n.rhsIdx i c 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- Entry (p, q) of what one point stores: the row of the feature block against the column of the weights, times the
    row's factor. -/
theorem entry (x0 : Vec Ideal S5000x256 .f32) (x1 : Vec Ideal S256x64 .f32) (x2 : Vec Ideal S5000x1 .f32)
    (p : Fin 5000) (q : Fin 64) :
    k0_pay1 (F := Ideal) x0 x1 x2 (ix2 p q) = (∑ k : Fin 256, x0 (ix2 p k) * x1 (ix2 k q)) * x2 (ix2 p (0 : Fin 1)) := by
  unfold k0_pay1
  refine (mulf_apply _ _ _).trans (congrArg₂ (· * ·) ?_ ?_)
  · exact Cert.LibMatmulZero.matmul_zero_ix2 dot_S5000x256_S256x64_S5000x64_1_0_0_1_n_n rfl rfl rfl rfl dot_row dot_col none _ _ p q
  · exact Cert.LibRowOps.broadcastTo_a1_ab_apply x2 broadcasts_S5000x1_S5000x64 p q

/-- The printed index maps over the ten points: the feature, factor and result blocks are row block t, the weight block
    is the one block there is. -/
theorem maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, q) of block t, computed from the point's blocks of any three arrays, is entry (5000·t + p, q) of `scaled`
    of those arrays. -/
theorem block_entry (t : Fin cfg0.N) (p : Fin 5000) (q : Fin 64) (A : FVec Ideal S50000x256 .f32)
    (W : FVec Ideal S256x64 .f32) (N : FVec Ideal S50000x1 .f32) :
    (∑ k : Fin 256, A (((cfg0.win 0).blk t).view.emb (ix2 p k : S5000x256.Idx))
        * W (((cfg0.win 1).blk t).view.emb (ix2 k q : S256x64.Idx)))
      * N (((cfg0.win 2).blk t).view.emb (ix2 p (0 : Fin 1) : S5000x1.Idx))
    = Cert.Layer.scaled A W N (((cfg0.win 3).blk t).view.emb (ix2 p q : S5000x64.Idx)) := by
  obtain ⟨e00, e01, e10, e11, e20, e21, e30, e31⟩ := maps t
  unfold Cert.Layer.scaled
  have hp : p.val < 5000 := p.isLt
  have hq : q.val < 64 := q.isLt
  refine congrArg₂ (· * ·) (Finset.sum_congr rfl fun k _ => congrArg₂ (· * ·) (congrArg _ ?_) (congrArg _ ?_)) (congrArg _ ?_)
  · funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 64 + 1 * q.val = win0_3.index t (1 : Fin 2) * 64 + 1 * q.val; omega
  · funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- What point t writes back is block t of `scaled` of the arrays the region finds. -/
theorem written (c : Dev nD) (t : Fin cfg0.N) :
    (dat0 V c).flushed 3 t = ((cfg0.win 3).blk t).view.read (Elt Ideal)
      (Cert.Layer.scaled (V c main_arg0) (V c main_arg2) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S5000x1) hz]
  funext j
  obtain ⟨p, q, rfl⟩ : ∃ (p : Fin 5000) (q : Fin 64), j = ix2 p q := ⟨j 0, j 1, eq_ix2 j⟩
  refine (entry (iblk0 V c 0 t) (iblk0 V c 1 t) (iblk0 V c 2 t) p q).trans ?_
  exact block_entry t p q (V c main_arg0) (V c main_arg2) (V c main_arg1)

/-- An index of the array is in point t's block iff each coordinate is in the block's range on its axis. -/
theorem mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v0).slice (win0_3.rect t)).set ↔ _
  rw [View.set_slice_whole, Rect.mem_set_unit]
  exact Iff.rfl

/-- Every row block is some point's. -/
theorem onto : ∀ q0 : Fin 10, ∃ t : Fin cfg0.N, win0_3.index t = ![q0.val, 0] :=
  (by decide +kernel : ∀ q0 : Fin 10, ∃ t : Fin grid0.N, win0_3.index t = ![q0.val, 0])

/-- Row r lies in the block of point r / 5000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the region: `scaled` of the feature, weight and factor arrays as the region finds them. -/
theorem array (c : Dev nD) :
    (dat0 V c).arrAt 3 cfg0.N = Cert.Layer.scaled (V c main_arg0) (V c main_arg2) (V c main_arg1) :=
  (dat0 V c).arrAt_eq_of_cover 3 _ (fun t _ => written V c t) covered

end Cert.KernelIdeal.Linear

end
-- ==== Proof.Post.lean ====
/-
  The second kernel region, read as a value: after its ten grid points the result array holds `Layer.activated` of
  the aggregated array, the normalisation column and the bias as the region finds them.

  Point t loads row block t of the aggregate and of the factor column and the whole bias vector, and stores
  max(a · n + b, 0) for its 5000 rows: entry (p, q) of the stored block is max(a(p, q) · n(p, 0) + b(q), 0) (`entry`;
  the cast of the aggregate block to its own shape is the identity, the factor column is repeated along the columns and
  the bias, laid as one row, along the rows). Row p of block t is row 5000·t + p of the arrays and the bias block is the
  whole vector (`maps`), so point t writes back block t of `activated` (`written`), and the ten blocks tile the rows
  (`covered`), hence the whole array (`array`).
-/
import proofs.«172814_j14362370638268_2_alg».proof.Proof.Gen.KernelIdeal.Frame
import proofs.«172814_j14362370638268_2_alg».proof.Proof.Spec
import proofs.«172814_j14362370638268_2_alg».proof.Proof.LibRowOps
import Idealize.ShloMosaic.Lib.Pipeline.Value
import Idealize.ShloMosaic.Lib.ValueIdx
import Idealize.ShloMosaic.Lib.ValueLayout

noncomputable section

namespace Cert.KernelIdeal.Post

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Entry (p, q) of what one point stores: the aggregate's entry times the row's factor, plus the column's bias, cut
    off below at zero. -/
theorem entry (x0 : Vec Ideal S5000x64 .f32) (x1 : Vec Ideal S5000x1 .f32) (x2 : Vec Ideal S64 .f32)
    (p : Fin 5000) (q : Fin 64) :
    k1_pay1 (F := Ideal) x0 x1 x2 (ix2 p q)
      = max (x0 (ix2 p q) * x1 (ix2 p (0 : Fin 1)) + x2 (ix1 q)) (Ideal.ofBits .f32 0x00000000#32) := by
  unfold k1_pay1
  refine (maximumf_apply _ _ _).trans (congrArg₂ max ?_ rfl)
  refine (addf_apply _ _ _).trans (congrArg₂ (· + ·) ?_ ?_)
  · refine (mulf_apply _ _ _).trans (congrArg₂ (· * ·) ?_ ?_)
    · exact congrFun (shapeCast_self x0 shapeCasts_S5000x64_S5000x64) (ix2 p q)
    · exact Cert.LibRowOps.broadcastTo_a1_ab_apply x1 broadcasts_S5000x1_S5000x64 p q
  · exact (broadcastTo_1b_ab_apply _ broadcasts_S1x64_S5000x64 p q).trans
      (shapeCast_a_1a_apply x2 shapeCasts_S64_S1x64 (0 : Fin 1) q)

/-- The printed index maps over the ten points: the aggregate, factor and result blocks are row block t, the bias block
    is the one block there is. -/
theorem maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Entry (p, q) of block t, computed from the point's blocks of any three arrays, is entry (5000·t + p, q) of
    `activated` of those arrays. -/
theorem block_entry (t : Fin cfg1.N) (p : Fin 5000) (q : Fin 64) (A : FVec Ideal S50000x64 .f32)
    (N : FVec Ideal S50000x1 .f32) (B : FVec Ideal S64 .f32) :
    max (A (((cfg1.win 0).blk t).view.emb (ix2 p q : S5000x64.Idx))
        * N (((cfg1.win 1).blk t).view.emb (ix2 p (0 : Fin 1) : S5000x1.Idx))
        + B (((cfg1.win 2).blk t).view.emb (ix1 q : S64.Idx))) (Ideal.ofBits .f32 0x00000000#32)
    = Cert.Layer.activated A N B (((cfg1.win 3).blk t).view.emb (ix2 p q : S5000x64.Idx)) := by
  obtain ⟨e00, e01, e10, e11, e20, e30, e31⟩ := maps t
  unfold Cert.Layer.activated
  have hp : p.val < 5000 := p.isLt
  have hq : q.val < 64 := q.isLt
  refine congrArg₂ max (congrArg₂ (· + ·) (congrArg₂ (· * ·) (congrArg _ ?_) (congrArg _ ?_)) (congrArg _ ?_)) rfl
  · funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  · funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  · funext a; apply Fin.ext
    match a with
    | ⟨0, _⟩ => show win1_2.index t (0 : Fin 1) * 64 + 1 * q.val = win1_3.index t (1 : Fin 2) * 64 + 1 * q.val; omega

/-- What point t writes back is block t of `activated` of the arrays the region finds. -/
theorem written (c : Dev nD) (t : Fin cfg1.N) :
    (dat1 V c).flushed 3 t = ((cfg1.win 3).blk t).view.read (Elt Ideal)
      (Cert.Layer.activated (V c main_v10) (V c main_arg1) (V c main_arg3)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S64) hz1]
  funext j
  obtain ⟨p, q, rfl⟩ : ∃ (p : Fin 5000) (q : Fin 64), j = ix2 p q := ⟨j 0, j 1, eq_ix2 j⟩
  refine (entry (iblk1 V c 0 t) (iblk1 V c 1 t) (iblk1 V c 2 t) p q).trans ?_
  exact block_entry t p q (V c main_v10) (V c main_arg1) (V c main_arg3)

/-- An index of the array is in point t's block iff each coordinate is in the block's range on its axis. -/
theorem mem_block (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v11).slice (win1_3.rect t)).set ↔ _
  rw [View.set_slice_whole, Rect.mem_set_unit]
  exact Iff.rfl

/-- Every row block is some point's. -/
theorem onto : ∀ q0 : Fin 10, ∃ t : Fin cfg1.N, win1_3.index t = ![q0.val, 0] :=
  (by decide +kernel : ∀ q0 : Fin 10, ∃ t : Fin grid1.N, win1_3.index t = ![q0.val, 0])

/-- Row r lies in the block of point r / 5000. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the region: `activated` of the aggregate, factor and bias arrays as the region finds them. -/
theorem array (c : Dev nD) :
    (dat1 V c).arrAt 3 cfg1.N = Cert.Layer.activated (V c main_v10) (V c main_arg1) (V c main_arg3) :=
  (dat1 V c).arrAt_eq_of_cover 3 _ (fun t _ => written V c t) covered

end Cert.KernelIdeal.Post

end
-- ==== Proof.KRun.lean ====
/-
  The kernel program's run with its result named.

  The program is: the linear region, thirteen host operations (the edge sources with negative entries wrapped by the
  node count, the gather of the scaled rows at those sources, and the scatter-add of the gathered rows at the edge
  destinations into a zero table), then the closing region. The run through these three segments is the one that proves
  the arguments unchanged; here its last state is read at the result buffer as well (`run_named`): the result is what
  the closing region's write-backs leave, over the buffer contents its entry finds.

  Those entry contents are then read back: the factor column and the bias are the launch contents (neither region nor
  any host operation writes them), the aggregate is the host operations' composed term `aggregate` of the linear
  region's result and the two edge arrays (`entry_agg`), and the linear region's result is `scaled` of the launch
  contents (`Linear.array`). So the result buffer ends at
  `activated (aggregate (scaled h w n) src dst) n b` of the launch contents (`run`).
-/
import proofs.«172814_j14362370638268_2_alg».proof.Proof.Gen.KernelIdeal.Frame
import proofs.«172814_j14362370638268_2_alg».proof.Proof.Linear
import proofs.«172814_j14362370638268_2_alg».proof.Proof.Post
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyValues
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the closing
    region's write-backs leave and the argument arrays as launched. -/
theorem run_named : θ_run defs (onTc (τ := τ) (main (F := F))) ⟨m, fun _ => 0, ρ⟩ (fun r => ∀ c : Dev nD,
      r.2.mem ((c.tc : Thread nD τ).loc main_v11) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v11 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end AnyValues

/-! ## The closing region's entry contents, read back to the launch -/

section Ideal
variable (m : (ℓ : Loc nD τ sig) → Buf (Elt Ideal) ℓ) (ρ : Dev nD → PrngReg)

/-- The aggregation the host performs between the two regions, as one function of the scaled rows and the two edge
    arrays: a source below zero is wrapped by the node count, the rows are gathered at the sources, and the gathered rows
    are added into a zero table at the destinations. -/
def aggregate (x : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The closing region finds the factor column as launched. -/
theorem entry_norm (c : Dev nD) : V2 m ρ c main_arg1 = m ((c : Thread nD τ).loc main_arg1) :=
  ((A_eq1 (V2 m ρ) c 1).symm.trans (((dat1 (V2 m ρ) c).arrAt_in 1 rfl _).symm.trans (W3_arr m ρ c 1).symm)).trans
    (W3_main_arg1 m ρ c)

/-- The closing region finds the bias as launched. -/
theorem entry_bias (c : Dev nD) : V2 m ρ c main_arg3 = m ((c : Thread nD τ).loc main_arg3) :=
  ((A_eq1 (V2 m ρ) c 2).symm.trans (((dat1 (V2 m ρ) c).arrAt_in 2 rfl _).symm.trans (W3_arr m ρ c 2).symm)).trans
    (W3_main_arg3 m ρ c)

/-- The closing region finds, in its first operand, the host's aggregate of the linear region's result array and the
    edge arrays as launched. -/
theorem entry_agg (c : Dev nD) :
    V2 m ρ c main_v10 = aggregate ((dat0 (V0 m ρ) c).arrAt 3 cfg0.N)
      (m ((c : Thread nD τ).loc main_arg4)) (m ((c : Thread nD τ).loc main_arg5)) := by
  have e0 : W1 m ρ c (Proc.devRef .tc main_v0) = (dat0 (V0 m ρ) c).arrAt 3 cfg0.N := W1_arr m ρ c 3
  have e4 : W1 m ρ c (Proc.devRef .tc main_arg4) = m ((c : Thread nD τ).loc main_arg4) := W1_of_ne m ρ c main_arg4 (by decide)
  have e5 : W1 m ρ c (Proc.devRef .tc main_arg5) = m ((c : Thread nD τ).loc main_arg5) := W1_of_ne m ρ c main_arg5 (by decide)
  rw [← e0, ← e4, ← e5]
  show StableHlo.after hostOps1 (W1 m ρ c) (Proc.devRef .tc main_v10) = _
  unfold aggregate
  after_results <;> rfl

/-- THE KERNEL PROGRAM'S VALUE: the result buffer ends at the closing stage of the aggregate of the linear stage, all of
    the launch contents; the arguments end as launched. -/
theorem run : θ_run defs (onTc (τ := τ) (main (F := Ideal))) ⟨m, fun _ => 0, ρ⟩ (fun r => ∀ c : Dev nD,
      r.2.mem ((c.tc : Thread nD τ).loc main_v11) = Cert.Layer.activated
        (aggregate (Cert.Layer.scaled (m ((c.tc : Thread nD τ).loc main_arg0)) (m ((c.tc : Thread nD τ).loc main_arg2))
            (m ((c.tc : Thread nD τ).loc main_arg1)))
          (m ((c.tc : Thread nD τ).loc main_arg4)) (m ((c.tc : Thread nD τ).loc main_arg5)))
        (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (by
      rw [Cert.KernelIdeal.Post.array (V2 m ρ) c, entry_norm m ρ c, entry_bias m ρ c, entry_agg m ρ c,
        Cert.KernelIdeal.Linear.array (V0 m ρ) c]), (h c).2⟩)
    (run_named m ρ)

end Ideal

end Cert.KernelIdeal.Run

end
-- ==== Proof.RefValue.lean ====
/-
  The reference program's result, stage by stage, in the terms of `Layer`.

  Its first three operations — the general matrix product of the features by the weights, the factor column repeated
  along the columns, and their entrywise product — are `scaled`: the host's product on the extended reals, read at
  (p, q), is the sum over the 256 contracted positions (`linear`). Its last operations — the aggregate times the
  repeated factor column, plus the bias laid as a row and repeated along the rows, and the maximum with the zero table —
  are `activated` of the aggregate (`closing`). In between it gathers and scatter-adds exactly as the kernel program's
  host operations do, which is left unopened: `result` states the whole term as `activated` of that aggregation of
  `scaled`.
-/
import proofs.«172814_j14362370638268_2_alg».proof.Proof.Gen.ReferenceIdeal.Run
import proofs.«172814_j14362370638268_2_alg».proof.Proof.Gen.ReferenceIdeal.Read
import proofs.«172814_j14362370638268_2_alg».proof.Proof.Spec
import proofs.«172814_j14362370638268_2_alg».proof.Proof.LibRowOps
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The reference's scaled product is `scaled`. -/
theorem linear (x0 : FVec Ideal S50000x256 .f32) (x1 : FVec Ideal S50000x1 .f32) (x2 : FVec Ideal S256x64 .f32) :
    val_main_v2 (F := Ideal) x0 x1 x2 = Cert.Layer.scaled x0 x2 x1 := by
  funext j
  obtain ⟨p, q, rfl⟩ : ∃ (p : Fin 50000) (q : Fin 64), j = ix2 p q := ⟨j 0, j 1, eq_ix2 j⟩
  show val_main_v0 (F := Ideal) x0 x2 (ix2 p q) * val_main_v1 (F := Ideal) x1 (ix2 p q) = _
  unfold Cert.Layer.scaled
  refine congrArg₂ (· * ·) ?_ ?_
  · exact Cert.LibRowOps.dotGeneral_ix2 dot_S50000x256_S256x64_S50000x64_1_0_0_1_n_n rfl rfl rfl rfl
      lhs_main_v0_0 rhs_main_v0_1 none x0 x2 p q
  · exact (val_main_v1_apply (F := Ideal) x1 (ix2 p q)).trans (congrArg x1 (funext fun a => by
      match a with
      | ⟨0, _⟩ => rfl
      | ⟨1, _⟩ => rfl))

/-- The reference's last stages are `activated`, whatever array they are applied to: it times the repeated factor
    column, plus the bias laid as a row and repeated along the rows, cut off below at the zero table. -/
theorem closing (agg : FVec Ideal S50000x64 .f32) (x1 : FVec Ideal S50000x1 .f32) (x3 : FVec Ideal S64 .f32) :
    maximumf (addf (mulf agg (val_main_v13 (F := Ideal) x1)) (val_main_v16 (F := Ideal) x3)) (val_main_call0_v0 (F := Ideal))
      = Cert.Layer.activated agg x1 x3 := by
  funext j
  obtain ⟨p, q, rfl⟩ : ∃ (p : Fin 50000) (q : Fin 64), j = ix2 p q := ⟨j 0, j 1, eq_ix2 j⟩
  unfold Cert.Layer.activated
  refine (maximumf_apply _ _ _).trans (congrArg₂ max ?_ ?_)
  · refine (addf_apply _ _ _).trans (congrArg₂ (· + ·) ?_ ?_)
    · refine (mulf_apply _ _ _).trans (congrArg₂ (· * ·) rfl ?_)
      exact (val_main_v13_apply (F := Ideal) x1 (ix2 p q)).trans (congrArg x1 (funext fun a => by
        match a with
        | ⟨0, _⟩ => rfl
        | ⟨1, _⟩ => rfl))
    · exact (val_main_v16_apply (F := Ideal) x3 (ix2 p q)).trans ((val_main_v15_apply (F := Ideal) x3 _).trans
        (congrArg x3 (funext fun a => by
          match a with
          | ⟨0, _⟩ => rfl)))
  · exact (val_main_call0_v0_apply (F := Ideal) (ix2 p q)).trans rfl

/-- The aggregation the reference performs between its two dense stages, as one function of the scaled rows and the two
    edge arrays: a source below zero is wrapped by the node count, the rows are gathered at the sources, and the gathered
    rows are added into a zero table at the destinations. -/
def aggregate (x : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The reference's scatter stage is that aggregation of its scaled product: the stages in between are its pieces,
    named. -/
theorem middle (x0 : FVec Ideal S50000x256 .f32) (x1 : FVec Ideal S50000x1 .f32) (x2 : FVec Ideal S256x64 .f32)
    (x4 x5 : IVec S800000 32) :
    val_main_v12 (F := Ideal) x0 x1 x2 x4 x5 = aggregate (val_main_v2 (F := Ideal) x0 x1 x2) x4 x5 := by
  unfold val_main_v12 val_main_v11 val_main_v10 val_main_cst val_main_v9 val_main_v8 val_main_v7 val_main_v6 val_main_v5
    val_main_c_0 val_main_v4 val_main_v3 val_main_c aggregate
  rfl

/-- THE REFERENCE'S VALUE: the last stage of its run is the closing stage of the aggregate of the linear stage. -/
theorem result (x0 : FVec Ideal S50000x256 .f32) (x1 : FVec Ideal S50000x1 .f32) (x2 : FVec Ideal S256x64 .f32)
    (x3 : FVec Ideal S64 .f32) (x4 x5 : IVec S800000 32) :
    val_main_v18 (F := Ideal) x0 x1 x2 x3 x4 x5
      = Cert.Layer.activated (aggregate (Cert.Layer.scaled x0 x2 x1) x4 x5) x1 x3 := by
  unfold val_main_v18 val_main_v17 val_main_v14
  rw [closing, middle, linear]

end Cert.ReferenceIdeal.RefValue

end
-- ==== Proof.lean ====
/-
  One graph-convolution layer, its kernel program against its reference, on the extended reals.

  Both programs compute, for node features h [50000, 256], weights w [256, 64], a normalisation column n [50000, 1],
  a bias b [64] and edge arrays src, dst [800000]:
      out = max( A( (h · w) ∘ n ) ∘ n + b , 0 ),
  where (h · w) ∘ n multiplies row r of the product by n(r, 0), and A gathers the rows of its argument at the edge
  sources (a negative source wrapped by the node count) and adds them into a zero table at the edge destinations.

  The kernel program computes (h · w) ∘ n in a first region of ten row blocks (the product taken after a change of
  format that is the identity on the extended reals, into a zero accumulator), performs A by host operations, and the
  outer scaling, bias and cut-off in a second region of ten row blocks; the reference does all of it by host operations.
  `Spec` names the two dense stages, `Linear` and `Post` read the two regions as those stages of the arrays they find,
  `KRun` carries them through the program's run, and `RefValue` reads the reference's stages as the same two functions.
  The aggregation A is the same composed term on both sides and is never opened; no finiteness of the inputs is used.

  The three frame claims are the generated frame runs (the reference's is its generated run with the result dropped);
  the idealisation rewrote nothing, so its claim is trivial.
-/
import proofs.«172814_j14362370638268_2_alg».proof.Defs
import proofs.«172814_j14362370638268_2_alg».proof.Proof.Gen.Kernel
import proofs.«172814_j14362370638268_2_alg».proof.Proof.Gen.Kernel.Skeleton
import proofs.«172814_j14362370638268_2_alg».proof.Proof.Gen.Kernel.Launch
import proofs.«172814_j14362370638268_2_alg».proof.Proof.Gen.Kernel.Points
import proofs.«172814_j14362370638268_2_alg».proof.Proof.Gen.Kernel.Frame
import proofs.«172814_j14362370638268_2_alg».proof.Proof.Gen.KernelIdeal
import proofs.«172814_j14362370638268_2_alg».proof.Proof.Gen.KernelIdeal.Skeleton
import proofs.«172814_j14362370638268_2_alg».proof.Proof.Gen.KernelIdeal.Launch
import proofs.«172814_j14362370638268_2_alg».proof.Proof.Gen.KernelIdeal.Points
import proofs.«172814_j14362370638268_2_alg».proof.Proof.Gen.KernelIdeal.Frame
import proofs.«172814_j14362370638268_2_alg».proof.Proof.Gen.ReferenceIdeal
import proofs.«172814_j14362370638268_2_alg».proof.Proof.Gen.ReferenceIdeal.Run
import proofs.«172814_j14362370638268_2_alg».proof.Proof.Gen.ReferenceIdeal.Read
import proofs.«172814_j14362370638268_2_alg».proof.Proof.Gen.Pre_finite_inputs
import proofs.«172814_j14362370638268_2_alg».proof.Proof.KRun
import proofs.«172814_j14362370638268_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at
    `activated (aggregate (scaled h w n) src dst) n b`: the kernel program by its run read through its two regions, the
    reference by its run read stage by stage; the two aggregations are one composed term. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v18_eq, Cert.ReferenceIdeal.RefValue.result, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
